-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_10" .f32 0x3DCCCCCD#32 ((1 / 10 : ℝ) : EReal)
  ∧ IdealRules.named_const.Statement Cert.KernelIdeal.κ "inv_10" .f32 0x3DCCCCCD#32 ((1 / 10 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S160x2x256 : Shape := ⟨3, ![160, 2, 256]⟩
abbrev S1024x2x256 : Shape := ⟨3, ![1024, 2, 256]⟩
abbrev S_ : Shape := ⟨0, ![]⟩

class Facts : Prop where
  bcast_S_S160x2x256 : S_.BroadcastsInDim S160x2x256 (![] : Fin 0 → Fin S160x2x256.rank)
  reducesTo_S160x2x256_S_d0_1_2 : S160x2x256.ReducesTo [0, 1, 2] S_
  h_S_ : 0 < S_.numel
  bcast_S_S1024x2x256 : S_.BroadcastsInDim S1024x2x256 (![] : Fin 0 → Fin S1024x2x256.rank)
  reducesTo_S1024x2x256_S_d0_1_2 : S1024x2x256.ReducesTo [0, 1, 2] S_

variable [Facts]

def fn {F : FTy → Type} [FloatOps F] (main_arg0 : FVec F S160x2x256 .f32) (main_arg1 : FVec F S1024x2x256 .f32) : IVec S_ 1 :=
  let main_v0 : FVec F S160x2x256 .f32 := Host.absf main_arg0
  let main_cst : FVec F S_ .f32 := constant S_ .f32 0x7F800000#32
  let main_v1 : FVec F S160x2x256 .f32 := broadcastInDim S160x2x256 ![] bcast_S_S160x2x256 main_cst
  let main_v2 : IVec S160x2x256 1 := cmpf .olt main_v0 main_v1
  let main_c : IVec S_ 1 := constantI S_ 1 1#1
  let main_v3 : IVec S_ 1 := (fun x v => Host.reduce IntOp.andi x v reducesTo_S160x2x256_S_d0_1_2 h_S_) main_v2 main_c
  let main_v4 : FVec F S1024x2x256 .f32 := Host.absf main_arg1
  let main_cst_0 : FVec F S_ .f32 := constant S_ .f32 0x7F800000#32
  let main_v5 : FVec F S1024x2x256 .f32 := broadcastInDim S1024x2x256 ![] bcast_S_S1024x2x256 main_cst_0
  let main_v6 : IVec S1024x2x256 1 := cmpf .olt main_v4 main_v5
  let main_c_1 : IVec S_ 1 := constantI S_ 1 1#1
  let main_v7 : IVec S_ 1 := (fun x v => Host.reduce IntOp.andi x v reducesTo_S1024x2x256_S_d0_1_2 h_S_) main_v6 main_c_1
  let main_v8 : IVec S_ 1 := andi main_v3 main_v7
  main_v8
-- ==== Kernel.lean ====
abbrev S160x2x256 : Shape := ⟨3, ![160, 2, 256]⟩
abbrev S1024x2x256 : Shape := ⟨3, ![1024, 2, 256]⟩
abbrev S1024x160x256 : Shape := ⟨3, ![1024, 160, 256]⟩
abbrev S128x2x256 : Shape := ⟨3, ![128, 2, 256]⟩
abbrev S16x2x256 : Shape := ⟨3, ![16, 2, 256]⟩
abbrev S128x16x256 : Shape := ⟨3, ![128, 16, 256]⟩
abbrev S128x1x256 : Shape := ⟨3, ![128, 1, 256]⟩
abbrev S128x256 : Shape := ⟨2, ![128, 256]⟩
abbrev S16x1x256 : Shape := ⟨3, ![16, 1, 256]⟩
abbrev S16x256 : Shape := ⟨2, ![16, 256]⟩
abbrev S1x16x256 : Shape := ⟨3, ![1, 16, 256]⟩
abbrev S163840x256 : Shape := ⟨2, ![163840, 256]⟩

abbrev nBuf : Space → Nat
  | .hbm => 6
  | .vmem => 8
  | .smem => 0
  | _ => 0

abbrev bufTy : (tb : Table) → Fin (tcTables nBuf tb) → BufTy
  | .hbm, ⟨0, _⟩ => ⟨S160x2x256, .f32⟩
  | .hbm, ⟨1, _⟩ => ⟨S1024x2x256, .f32⟩
  | .hbm, ⟨2, _⟩ => ⟨S1024x160x256, .f32⟩
  | .hbm, ⟨3, _⟩ => ⟨S1024x160x256, .f32⟩
  | .hbm, ⟨4, _⟩ => ⟨S163840x256, .f32⟩
  | .hbm, ⟨5, _⟩ => ⟨S163840x256, .f32⟩
  | .local _ .vmem, ⟨0, _⟩ => ⟨S128x2x256, .f32⟩
  | .local _ .vmem, ⟨1, _⟩ => ⟨S128x2x256, .f32⟩
  | .local _ .vmem, ⟨2, _⟩ => ⟨S16x2x256, .f32⟩
  | .local _ .vmem, ⟨3, _⟩ => ⟨S16x2x256, .f32⟩
  | .local _ .vmem, ⟨4, _⟩ => ⟨S128x16x256, .f32⟩
  | .local _ .vmem, ⟨5, _⟩ => ⟨S128x16x256, .f32⟩
  | .local _ .vmem, ⟨6, _⟩ => ⟨S128x16x256, .f32⟩
  | .local _ .vmem, ⟨7, _⟩ => ⟨S128x16x256, .f32⟩
  | _, _ => ⟨S160x2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x2x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S128x2x256_S128x2x256_0_0_0 : ∀ a, (![0, 0, 0] : Fin 3 → Nat) a + S128x2x256.size a ≤ S128x2x256.size a
  h_S128x2x256 : 0 < S128x2x256.numel
  inb_S16x2x256_S16x2x256_0_0_0 : ∀ a, (![0, 0, 0] : Fin 3 → Nat) a + S16x2x256.size a ≤ S16x2x256.size a
  h_S16x2x256 : 0 < S16x2x256.numel
  slices_S128x2x256_o0_0_0_S128x1x256 : S128x2x256.Slices ![0, 0, 0] S128x1x256
  shapeCasts_S128x1x256_S128x256 : S128x1x256.ShapeCasts S128x256
  slices_S128x2x256_o0_1_0_S128x1x256 : S128x2x256.Slices ![0, 1, 0] S128x1x256
  slices_S16x2x256_o0_0_0_S16x1x256 : S16x2x256.Slices ![0, 0, 0] S16x1x256
  shapeCasts_S16x1x256_S16x256 : S16x1x256.ShapeCasts S16x256
  slices_S16x2x256_o0_1_0_S16x1x256 : S16x2x256.Slices ![0, 1, 0] S16x1x256
  shapeCasts_S128x256_S128x1x256 : S128x256.ShapeCasts S128x1x256
  shapeCasts_S16x256_S1x16x256 : S16x256.ShapeCasts S1x16x256
  broadcasts_S128x1x256_S128x16x256 : S128x1x256.Broadcasts S128x16x256
  broadcasts_S1x16x256_S128x16x256 : S1x16x256.Broadcasts S128x16x256
  inb_S128x16x256_S128x16x256_0_0_0 : ∀ a, (![0, 0, 0] : Fin 3 → Nat) a + S128x16x256.size a ≤ S128x16x256.size a
  h_S128x16x256 : 0 < S128x16x256.numel
  shapeCasts_S1024x160x256_S163840x256 : S1024x160x256.ShapeCasts S163840x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2x256.size a ≤ S1024x2x256.size a
  hwx0_0 : ∀ i : grid0.Coords, EltTy.bits .f32 = 32 ∨ (Rect.block (s := S1024x2x256) S128x2x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x2x256.size a ≤ S160x2x256.size a
  hwx0_1 : ∀ i : grid0.Coords, EltTy.bits .f32 = 32 ∨ (Rect.block (s := S160x2x256) S16x2x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x16x256.size a ≤ S1024x160x256.size a
  hwx0_2 : ∀ i : grid0.Coords, EltTy.bits .f32 = 32 ∨ (Rect.block (s := S1024x160x256) S128x16x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x16x256.size a ≤ S1024x160x256.size a
  hwx0_3 : ∀ i : grid0.Coords, EltTy.bits .f32 = 32 ∨ (Rect.block (s := S1024x160x256) S128x16x256.size (cc0_transform_3 i) (hinb0_3 i)).WholeWords (EltTy.packing .f32)

variable [Facts₀]

abbrev win0_0 : Pipeline.Window sig grid0 :=
  Pipeline.Window.ofSpec (Memref.whole main_arg1) S128x2x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S16x2x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S128x16x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S128x16x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S160x2x256 : Shape := ⟨3, ![160, 2, 256]⟩
abbrev S1024x2x256 : Shape := ⟨3, ![1024, 2, 256]⟩
abbrev S160x1x256 : Shape := ⟨3, ![160, 1, 256]⟩
abbrev S160x256 : Shape := ⟨2, ![160, 256]⟩
abbrev S_ : Shape := ⟨0, ![]⟩
abbrev S1024x1x256 : Shape := ⟨3, ![1024, 1, 256]⟩
abbrev S1024x256 : Shape := ⟨2, ![1024, 256]⟩
abbrev S1x160x256 : Shape := ⟨3, ![1, 160, 256]⟩
abbrev S1024x160x256 : Shape := ⟨3, ![1024, 160, 256]⟩
abbrev S163840x256 : Shape := ⟨2, ![163840, 256]⟩

abbrev nBuf : Space → Nat
  | .hbm => 138
  | .vmem => 0
  | .smem => 0
  | _ => 0

abbrev hbmTy0_0 (i : Nat) : BufTy := match i % 128 with
  | 0 => ⟨S160x2x256, .f32⟩
  | 1 => ⟨S1024x2x256, .f32⟩
  | 2 => ⟨S160x1x256, .f32⟩
  | 3 => ⟨S160x256, .f32⟩
  | 4 => ⟨S_, .f32⟩
  | 5 => ⟨S160x256, .f32⟩
  | 6 => ⟨S160x256, .f32⟩
  | 7 => ⟨S_, .f32⟩
  | 8 => ⟨S160x256, .f32⟩
  | 9 => ⟨S160x256, .f32⟩
  | 10 => ⟨S160x256, .f32⟩
  | 11 => ⟨S160x256, .f32⟩
  | 12 => ⟨S160x256, .i1⟩
  | 13 => ⟨S160x256, .f32⟩
  | 14 => ⟨S160x256, .f32⟩
  | 15 => ⟨S160x256, .f32⟩
  | 16 => ⟨S160x256, .f32⟩
  | 17 => ⟨S160x256, .f32⟩
  | 18 => ⟨S160x256, .f32⟩
  | 19 => ⟨S160x256, .f32⟩
  | 20 => ⟨S160x256, .f32⟩
  | 21 => ⟨S_, .f32⟩
  | 22 => ⟨S160x256, .f32⟩
  | 23 => ⟨S160x256, .f32⟩
  | 24 => ⟨S160x1x256, .f32⟩
  | 25 => ⟨S160x256, .f32⟩
  | 26 => ⟨S160x256, .f32⟩
  | 27 => ⟨S160x256, .f32⟩
  | 28 => ⟨S160x256, .f32⟩
  | 29 => ⟨S_, .f32⟩
  | 30 => ⟨S160x256, .f32⟩
  | 31 => ⟨S160x256, .f32⟩
  | 32 => ⟨S_, .f32⟩
  | 33 => ⟨S160x256, .f32⟩
  | 34 => ⟨S160x256, .f32⟩
  | 35 => ⟨S160x1x256, .f32⟩
  | 36 => ⟨S160x256, .f32⟩
  | 37 => ⟨S160x256, .f32⟩
  | 38 => ⟨S160x256, .f32⟩
  | 39 => ⟨S160x256, .f32⟩
  | 40 => ⟨S_, .f32⟩
  | 41 => ⟨S160x256, .f32⟩
  | 42 => ⟨S160x256, .f32⟩
  | 43 => ⟨S_, .f32⟩
  | 44 => ⟨S160x256, .f32⟩
  | 45 => ⟨S160x256, .f32⟩
  | 46 => ⟨S1024x1x256, .f32⟩
  | 47 => ⟨S1024x256, .f32⟩
  | 48 => ⟨S_, .f32⟩
  | 49 => ⟨S1024x256, .f32⟩
  | 50 => ⟨S1024x256, .f32⟩
  | 51 => ⟨S_, .f32⟩
  | 52 => ⟨S1024x256, .f32⟩
  | 53 => ⟨S1024x256, .f32⟩
  | 54 => ⟨S1024x256, .f32⟩
  | 55 => ⟨S1024x256, .f32⟩
  | 56 => ⟨S1024x256, .i1⟩
  | 57 => ⟨S1024x256, .f32⟩
  | 58 => ⟨S1024x256, .f32⟩
  | 59 => ⟨S1024x256, .f32⟩
  | 60 => ⟨S1024x256, .f32⟩
  | 61 => ⟨S1024x256, .f32⟩
  | 62 => ⟨S1024x256, .f32⟩
  | 63 => ⟨S1024x256, .f32⟩
  | 64 => ⟨S1024x256, .f32⟩
  | 65 => ⟨S_, .f32⟩
  | 66 => ⟨S1024x256, .f32⟩
  | 67 => ⟨S1024x256, .f32⟩
  | 68 => ⟨S1024x1x256, .f32⟩
  | 69 => ⟨S1024x256, .f32⟩
  | 70 => ⟨S1024x256, .f32⟩
  | 71 => ⟨S1024x256, .f32⟩
  | 72 => ⟨S1024x256, .f32⟩
  | 73 => ⟨S_, .f32⟩
  | 74 => ⟨S1024x256, .f32⟩
  | 75 => ⟨S1024x256, .f32⟩
  | 76 => ⟨S_, .f32⟩
  | 77 => ⟨S1024x256, .f32⟩
  | 78 => ⟨S1024x256, .f32⟩
  | 79 => ⟨S1024x1x256, .f32⟩
  | 80 => ⟨S1024x256, .f32⟩
  | 81 => ⟨S1024x256, .f32⟩
  | 82 => ⟨S1024x256, .f32⟩
  | 83 => ⟨S1024x256, .f32⟩
  | 84 => ⟨S_, .f32⟩
  | 85 => ⟨S1024x256, .f32⟩
  | 86 => ⟨S1024x256, .f32⟩
  | 87 => ⟨S_, .f32⟩
  | 88 => ⟨S1024x256, .f32⟩
  | 89 => ⟨S1024x256, .f32⟩
  | 90 => ⟨S1024x1x256, .f32⟩
  | 91 => ⟨S1x160x256, .f32⟩
  | 92 => ⟨S1024x160x256, .f32⟩
  | 93 => ⟨S1024x160x256, .f32⟩
  | 94 => ⟨S1024x160x256, .f32⟩
  | 95 => ⟨S1024x160x256, .f32⟩
  | 96 => ⟨S1024x160x256, .f32⟩
  | 97 => ⟨S1024x160x256, .f32⟩
  | 98 => ⟨S1024x160x256, .f32⟩
  | 99 => ⟨S1024x160x256, .f32⟩
  | 100 => ⟨S_, .f32⟩
  | 101 => ⟨S1024x160x256, .f32⟩
  | 102 => ⟨S1024x160x256, .f32⟩
  | 103 => ⟨S1024x160x256, .f32⟩
  | 104 => ⟨S1024x160x256, .f32⟩
  | 105 => ⟨S_, .f32⟩
  | 106 => ⟨S1024x160x256, .f32⟩
  | 107 => ⟨S1024x160x256, .f32⟩
  | 108 => ⟨S1024x160x256, .f32⟩
  | 109 => ⟨S1024x160x256, .f32⟩
  | 110 => ⟨S1024x160x256, .f32⟩
  | 111 => ⟨S1024x160x256, .f32⟩
  | 112 => ⟨S1024x160x256, .f32⟩
  | 113 => ⟨S1024x1x256, .f32⟩
  | 114 => ⟨S1x160x256, .f32⟩
  | 115 => ⟨S1024x160x256, .f32⟩
  | 116 => ⟨S1024x160x256, .f32⟩
  | 117 => ⟨S1024x160x256, .f32⟩
  | 118 => ⟨S1024x160x256, .f32⟩
  | 119 => ⟨S1024x160x256, .f32⟩
  | 120 => ⟨S1024x160x256, .f32⟩
  | 121 => ⟨S1024x160x256, .f32⟩
  | 122 => ⟨S1024x160x256, .f32⟩
  | 123 => ⟨S_, .f32⟩
  | 124 => ⟨S1024x160x256, .f32⟩
  | 125 => ⟨S1024x160x256, .f32⟩
  | 126 => ⟨S1024x160x256, .f32⟩
  | 127 => ⟨S1024x160x256, .f32⟩
  | _ => ⟨S160x2x256, .f32⟩

abbrev hbmTy0_1 (i : Nat) : BufTy := match i % 128 with
  | 0 => ⟨S_, .f32⟩
  | 1 => ⟨S1024x160x256, .f32⟩
  | 2 => ⟨S1024x160x256, .f32⟩
  | 3 => ⟨S1024x160x256, .f32⟩
  | 4 => ⟨S1024x160x256, .f32⟩
  | 5 => ⟨S1024x160x256, .f32⟩
  | 6 => ⟨S1024x160x256, .f32⟩
  | 7 => ⟨S1024x160x256, .f32⟩
  | 8 => ⟨S163840x256, .f32⟩
  | 9 => ⟨S163840x256, .f32⟩
  | _ => ⟨S160x2x256, .f32⟩

abbrev hbmTy (i : Nat) : BufTy := match i / 128 with
  | 0 => hbmTy0_0 i
  | 1 => hbmTy0_1 i
  | _ => ⟨S160x2x256, .f32⟩

abbrev bufTy : (tb : Table) → Fin (tcTables nBuf tb) → BufTy
  | .hbm, ⟨i, _⟩ => hbmTy i
  | _, _ => ⟨S160x2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_5 : Ref sig .tc := ⟨.hbm, 48, rfl⟩
abbrev main_v27 : Ref sig .tc := ⟨.hbm, 49, rfl⟩
abbrev main_v28 : Ref sig .tc := ⟨.hbm, 50, rfl⟩
abbrev main_call1_cst : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_v29 : Ref sig .tc := ⟨.hbm, 64, rfl⟩
abbrev main_cst_6 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_cst_7 : Ref sig .tc := ⟨.hbm, 73, rfl⟩
abbrev main_v37 : Ref sig .tc := ⟨.hbm, 74, rfl⟩
abbrev main_v38 : Ref sig .tc := ⟨.hbm, 75, rfl⟩
abbrev main_cst_8 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_cst_9 : Ref sig .tc := ⟨.hbm, 84, rfl⟩
abbrev main_v46 : Ref sig .tc := ⟨.hbm, 85, rfl⟩
abbrev main_v47 : Ref sig .tc := ⟨.hbm, 86, rfl⟩
abbrev main_cst_10 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_cst_11 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_12 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_13 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_cst_14 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩

abbrev nD : Nat := 1
abbrev τ : Topo := Topo.v7x

variable {F : FTy → Type} [FloatOps F]

class Facts₀ : Prop where
  slices_S160x2x256_S160x1x256_0_1_0 : S160x2x256.Slices ![0, 1, 0] S160x1x256
  shapeCasts_S160x1x256_S160x256 : S160x1x256.ShapeCasts S160x256
  bcast_S_S160x256 : S_.BroadcastsInDim S160x256 (![] : Fin 0 → Fin S160x256.rank)
  slices_S160x2x256_S160x1x256_0_0_0 : S160x2x256.Slices ![0, 0, 0] S160x1x256
  slices_S1024x2x256_S1024x1x256_0_1_0 : S1024x2x256.Slices ![0, 1, 0] S1024x1x256
  shapeCasts_S1024x1x256_S1024x256 : S1024x1x256.ShapeCasts S1024x256
  bcast_S_S1024x256 : S_.BroadcastsInDim S1024x256 (![] : Fin 0 → Fin S1024x256.rank)
  slices_S1024x2x256_S1024x1x256_0_0_0 : S1024x2x256.Slices ![0, 0, 0] S1024x1x256
  bcast_S1024x256_S1024x1x256_0_2 : S1024x256.BroadcastsInDim S1024x1x256 (![0, 2] : Fin 2 → Fin S1024x1x256.rank)
  bcast_S160x256_S1x160x256_1_2 : S160x256.BroadcastsInDim S1x160x256 (![1, 2] : Fin 2 → Fin S1x160x256.rank)
  bcast_S1024x1x256_S1024x160x256_0_1_2 : S1024x1x256.BroadcastsInDim S1024x160x256 (![0, 1, 2] : Fin 3 → Fin S1024x160x256.rank)
  bcast_S1x160x256_S1024x160x256_0_1_2 : S1x160x256.BroadcastsInDim S1024x160x256 (![0, 1, 2] : Fin 3 → Fin S1024x160x256.rank)
  bcast_S_S1024x160x256 : S_.BroadcastsInDim S1024x160x256 (![] : Fin 0 → Fin S1024x160x256.rank)
  shapeCasts_S1024x160x256_S163840x256 : S1024x160x256.ShapeCasts S163840x256

variable [Facts₀]

class Facts : Prop extends Facts₀ where

variable [Facts]
-- ==== Proof.BoxSpec.lean ====
/-
  Two families of boxes, each box a centre row and an offset row over 256 coordinates. A box's lower and upper
  corner at a coordinate are the logistic of (centre ∓ s), s the softplus of ten times the offset, divided by ten.
  For every pair (box of the second family, box of the first) and every coordinate the result holds the smooth
  maximum of the two lower corners and the smooth minimum of the two upper corners:
      max a b + β · log(1 + exp(−|a − b| / β)),      min a b − β · log(1 + exp(−|a − b| / β)).
  The correction term β · log(1 + exp(·)) is never negative on the extended reals, so taking the maximum of the
  smooth maximum with max a b again (or the minimum of the smooth minimum with min a b) changes nothing: this is the
  one law that joins the two programs, and it needs no finiteness.
-/
import Idealize.ShloMosaic.PureOps.Ideal
import Idealize.ShloMosaic.PureOps.Ideal.Laws
import Idealize.ShloMosaic.Lib.ValueIdx

noncomputable section

namespace Cert.BoxPairs

open Idealize.ShloMosaic Idealize.ShloMosaic.ValueIdx

/-! ## The literals whose values matter -/

/-- The word of `10.0` denotes the real ten. -/
theorem ofBits_ten : Ideal.ofBits .f32 0x41200000#32 = ((10 : ℝ) : EReal) := by
  simp [Ideal.ofBits, Ideal.ieee, -EReal.coe_mul]; norm_num

/-- The word of `1.0` denotes one. -/
theorem ofBits_one : Ideal.ofBits .f32 0x3F800000#32 = 1 := by
  simp [Ideal.ofBits, Ideal.ieee, -EReal.coe_mul]; norm_num

/-- The temperature β (the word of `0.0036`) is not negative; its exact value is never needed. -/
theorem beta_nonneg : (0 : EReal) ≤ Ideal.ofBits .f32 0x3B6BEDFA#32 := by
  simp [Ideal.ofBits, Ideal.ieee, -EReal.coe_mul]

/-! ## The scalar functions -/

/-- `|x|` on the extended reals. -/
def absE (x : EReal) : EReal := max x (-x)

/-- `softplus(10 · o) / 10`, the softplus written `max(x, 0) + log(1 + exp(−|x|))`. -/
def softOffset (o : EReal) : EReal :=
  (max (Ideal.ofBits .f32 0x41200000#32 * o) 0
    + Ideal.log1p (Ideal.exp (-(absE (Ideal.ofBits .f32 0x41200000#32 * o))))) * ((1 / 10 : ℝ) : EReal)

/-- A box's lower corner at one coordinate, from its centre and offset entries. -/
def lowerCorner (c o : EReal) : EReal := Ideal.logistic (c - softOffset o)

/-- A box's upper corner at one coordinate. -/
def upperCorner (c o : EReal) : EReal := Ideal.logistic (c + softOffset o)

/-- The correction `β · log(1 + exp(−|a − b| / β))`. -/
def correction (a b : EReal) : EReal :=
  Ideal.ofBits .f32 0x3B6BEDFA#32
    * Ideal.log1p (Ideal.exp (Ideal.div (-(absE (a - b))) (Ideal.ofBits .f32 0x3B6BEDFA#32)))

/-- The smooth maximum of two numbers. -/
def smoothMax (a b : EReal) : EReal := max a b + correction a b

/-- The smooth minimum of two numbers. -/
def smoothMin (a b : EReal) : EReal := min a b - correction a b

/-! ## The correction is not negative, so one more max / min is absorbed -/

theorem exp_nonneg (y : EReal) : 0 ≤ Ideal.exp y := by
  induction y using EReal.rec with
  | bot => simp
  | coe r => rw [Ideal.exp_coe]; exact_mod_cast (Real.exp_pos r).le
  | top => simp

theorem log1p_nonneg {z : EReal} (hz : 0 ≤ z) : 0 ≤ Ideal.log1p z := by
  unfold Ideal.log1p
  induction z using EReal.rec with
  | bot => simp at hz
  | coe r =>
    have hr : (0 : ℝ) ≤ r := by exact_mod_cast hz
    have h1 : (1 : EReal) + (r : EReal) = ((1 + r : ℝ) : EReal) := by rw [← EReal.coe_one, ← EReal.coe_add]
    rw [h1, Ideal.log_coe, if_neg (by linarith)]
    exact_mod_cast Real.log_nonneg (by linarith)
  | top =>
    rw [EReal.add_top_of_ne_bot (show (1 : EReal) ≠ ⊥ from EReal.coe_ne_bot 1), Ideal.log_top]
    exact le_top

theorem correction_nonneg (a b : EReal) : 0 ≤ correction a b :=
  mul_nonneg beta_nonneg (log1p_nonneg (exp_nonneg _))

/-- The maximum of the smooth maximum with the plain maximum is the smooth maximum. -/
theorem max_smoothMax (a b : EReal) : max (smoothMax a b) (max a b) = smoothMax a b :=
  max_eq_left (le_add_of_nonneg_right (correction_nonneg a b))

/-- The minimum of the smooth minimum with the plain minimum is the smooth minimum. -/
theorem min_smoothMin (a b : EReal) : min (smoothMin a b) (min a b) = smoothMin a b := by
  refine min_eq_left ?_
  unfold smoothMin
  rw [sub_eq_add_neg]
  have h : -(correction a b) ≤ 0 := by
    have := EReal.neg_le_neg_iff.mpr (correction_nonneg a b)
    simpa using this
  exact add_le_of_nonpos_right h

/-! ## The two result arrays, as functions of the two argument arrays -/

/-- Entry (pair (n₂, n₁), coordinate d) of the first result: the smooth maximum of the two lower corners. -/
def pairLower (box1 : (⟨3, ![160, 2, 256]⟩ : Shape).Idx → EReal) (box2 : (⟨3, ![1024, 2, 256]⟩ : Shape).Idx → EReal)
    (n2 : Fin 1024) (n1 : Fin 160) (d : Fin 256) : EReal :=
  smoothMax (lowerCorner (box2 (ix3 n2 (0 : Fin 2) d)) (box2 (ix3 n2 (1 : Fin 2) d)))
    (lowerCorner (box1 (ix3 n1 (0 : Fin 2) d)) (box1 (ix3 n1 (1 : Fin 2) d)))

/-- Entry (pair (n₂, n₁), coordinate d) of the second result: the smooth minimum of the two upper corners. -/
def pairUpper (box1 : (⟨3, ![160, 2, 256]⟩ : Shape).Idx → EReal) (box2 : (⟨3, ![1024, 2, 256]⟩ : Shape).Idx → EReal)
    (n2 : Fin 1024) (n1 : Fin 160) (d : Fin 256) : EReal :=
  smoothMin (upperCorner (box2 (ix3 n2 (0 : Fin 2) d)) (box2 (ix3 n2 (1 : Fin 2) d)))
    (upperCorner (box1 (ix3 n1 (0 : Fin 2) d)) (box1 (ix3 n1 (1 : Fin 2) d)))

/-- The first result before the pairs are numbered in one axis. -/
def lowerArray (box1 : (⟨3, ![160, 2, 256]⟩ : Shape).Idx → EReal) (box2 : (⟨3, ![1024, 2, 256]⟩ : Shape).Idx → EReal) :
    (⟨3, ![1024, 160, 256]⟩ : Shape).Idx → EReal := fun i => pairLower box1 box2 (i 0) (i 1) (i 2)

/-- The second result before the pairs are numbered in one axis. -/
def upperArray (box1 : (⟨3, ![160, 2, 256]⟩ : Shape).Idx → EReal) (box2 : (⟨3, ![1024, 2, 256]⟩ : Shape).Idx → EReal) :
    (⟨3, ![1024, 160, 256]⟩ : Shape).Idx → EReal := fun i => pairUpper box1 box2 (i 0) (i 1) (i 2)

theorem lowerArray_ix3 (box1 : (⟨3, ![160, 2, 256]⟩ : Shape).Idx → EReal) (box2 : (⟨3, ![1024, 2, 256]⟩ : Shape).Idx → EReal)
    (n2 : Fin 1024) (n1 : Fin 160) (d : Fin 256) :
    lowerArray box1 box2 (ix3 n2 n1 d) = pairLower box1 box2 n2 n1 d := rfl

theorem upperArray_ix3 (box1 : (⟨3, ![160, 2, 256]⟩ : Shape).Idx → EReal) (box2 : (⟨3, ![1024, 2, 256]⟩ : Shape).Idx → EReal)
    (n2 : Fin 1024) (n1 : Fin 160) (d : Fin 256) :
    upperArray box1 box2 (ix3 n2 n1 d) = pairUpper box1 box2 n2 n1 d := rfl

end Cert.BoxPairs

end
-- ==== Proof.LibMiddleUnitAxis.lean ====
/-
  Layout operations on rank-3 arrays with a unit MIDDLE axis, read at an index written by coordinates.
  An `[a, 1, b]` array is an `[a, b]` matrix with a unit axis inserted; pairing the rows of an `[a, b]` matrix with the
  rows of a `[c, b]` matrix coordinate by coordinate goes through `[a, 1, b]` and `[1, c, b]`, both stretched to
  `[a, c, b]`. Each lemma here reads one such step at `(p, q, d)`; all are generic in the extents.
-/
import Idealize.ShloMosaic.Lib.ValueLayout

namespace Idealize.ShloMosaic.ValueIdx

open Idealize.ShloMosaic

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array broadcast to `[a, c, b]` reads, at `(p, q, d)`, the operand at `(p, 0, d)`: every
    middle coordinate sees the same row. -/
theorem broadcastTo_a1b_acb_apply {a c b : ℕ} (v : (⟨3, ![a, 1, b]⟩ : Shape).Idx → α)
    (h : (⟨3, ![a, 1, b]⟩ : Shape).Broadcasts ⟨3, ![a, c, b]⟩) (p : Fin a) (q : Fin c) (d : Fin b) :
    broadcastTo ⟨3, ![a, c, b]⟩ v h (ix3 p q d) = v (ix3 p (0 : Fin 1) d) := by
  refine broadcastTo_apply v h (ix3 p q d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if b = 1 then 0 else d.val
    split
    · have := d.isLt; omega
    · rfl

/-- A `[1, c, b]` array broadcast to `[a, c, b]` reads, at `(p, q, d)`, the operand at `(0, q, d)`: every leading
    coordinate sees the same matrix. -/
theorem broadcastTo_1cb_acb_apply {a c b : ℕ} (v : (⟨3, ![1, c, b]⟩ : Shape).Idx → α)
    (h : (⟨3, ![1, c, b]⟩ : Shape).Broadcasts ⟨3, ![a, c, b]⟩) (p : Fin a) (q : Fin c) (d : Fin b) :
    broadcastTo ⟨3, ![a, c, b]⟩ v h (ix3 p q d) = v (ix3 (0 : Fin 1) q d) := by
  refine broadcastTo_apply v h (ix3 p q d) (ix3 (0 : Fin 1) q d) fun ax => ?_
  match ax with
  | ⟨0, _⟩ => rfl
  | ⟨1, _⟩ =>
    show q.val = if c = 1 then 0 else q.val
    split
    · have := q.isLt; omega
    · rfl
  | ⟨2, _⟩ =>
    show d.val = if b = 1 then 0 else d.val
    split
    · have := d.isLt; omega
    · rfl

/-- Row `k` of the middle axis of an `[a, n, b]` array, kept as `[a, 1, b]` and cast to `[a, b]`, reads at `(i, j)`
    the array at `(i, k, j)`. -/
theorem middleRow_apply {a n b : ℕ} (o : ℕ) (x : (⟨3, ![a, n, b]⟩ : Shape).Idx → α)
    (hs : (⟨3, ![a, n, b]⟩ : Shape).Slices ![0, o, 0] ⟨3, ![a, 1, b]⟩)
    (hc : (⟨3, ![a, 1, b]⟩ : Shape).ShapeCasts ⟨2, ![a, b]⟩) (k : Fin n) (hk : k.val = o) (i : Fin a) (j : Fin b) :
    shapeCast ⟨2, ![a, b]⟩ (extractStridedSlice ⟨3, ![a, 1, b]⟩ ![0, o, 0] x hs) hc (ix2 i j) = x (ix3 i k j) :=
  (shapeCast_a1b_ab_apply _ hc i j).trans
    (slice3_axis1_apply o x hs i (0 : Fin 1) j k (by rw [hk]; rfl))

end Idealize.ShloMosaic.ValueIdx
-- ==== Proof.BlockValue.lean ====
/-
  What one grid point computes, entry by entry. A point holds a block of 128 boxes of the second family and a block
  of 16 boxes of the first; it stores, at (p, q, d), the smooth maximum of the lower corners and the smooth minimum of
  the upper corners of box p and box q at coordinate d. The rows are cut out of the blocks (centre row, offset row),
  the offsets pass through softplus and the named tenth, the 128 rows and the 16 rows are paired by stretching both to
  [128, 16, 256], and the rest is pointwise.
-/
import proofs.«155455_j89215060672871_1_alg».proof.Proof.Gen.KernelIdeal.Skeleton
import proofs.«155455_j89215060672871_1_alg».proof.Proof.BoxSpec
import proofs.«155455_j89215060672871_1_alg».proof.Proof.LibMiddleUnitAxis
import Idealize.ShloMosaic.PureOps.IdealRules

noncomputable section

namespace Cert.KernelIdeal.BlockValue

open Idealize.ShloMosaic Idealize.ShloMosaic.ValueIdx Cert.KernelIdeal Cert.KernelIdeal.Gen Cert.BoxPairs

/-! ## Scalars -/

/-- The kernel's named tenth is the rational 1/10. -/
theorem tenth : Named.named (F := Ideal) Cert.KernelIdeal.κ "inv_10" (φ := .f32) 0x3DCCCCCD#32 = ((1 / 10 : ℝ) : EReal) :=
  IdealRules.named_const.ideal_named_scalar _ _ _ _ rfl

theorem absf_eq (x : EReal) : FloatOps.absf (F := Ideal) (φ := .f32) x = absE x := rfl

/-- No extended real differs from itself: the guard `x ≠ x` is never taken. -/
theorem cmpf_one_self (x : EReal) : FloatOps.cmpf (F := Ideal) (φ := .f32) .one x x = 0#1 := by
  show Ideal.cmp .one x x = 0#1
  simp [Ideal.cmp]

/-- The softplus of ten times an entry, as the body spells it: `x ≠ x` guarding `x + 0`, else
    `max(x, 0) + log(1 + exp(0 − |x − 0|))`. -/
def rawSoftplus (o : Ideal .f32) : Ideal .f32 :=
  Scalar.select
    (FloatOps.cmpf CmpFPredicate.one
      (FloatOps.subf (FloatOps.mulf (FloatOps.ofBits FTy.f32 0x41200000#32) o) (FloatOps.ofBits FTy.f32 0x00000000#32))
      (FloatOps.subf (FloatOps.mulf (FloatOps.ofBits FTy.f32 0x41200000#32) o) (FloatOps.ofBits FTy.f32 0x00000000#32)))
    (FloatOps.addf (FloatOps.mulf (FloatOps.ofBits FTy.f32 0x41200000#32) o) (FloatOps.ofBits FTy.f32 0x00000000#32))
    (FloatOps.addf
      (FloatOps.maximumf (FloatOps.mulf (FloatOps.ofBits FTy.f32 0x41200000#32) o) (FloatOps.ofBits FTy.f32 0x00000000#32))
      (FloatOps.log1p (FloatOps.exp (FloatOps.subf (FloatOps.ofBits FTy.f32 0x00000000#32)
        (FloatOps.absf (FloatOps.subf (FloatOps.mulf (FloatOps.ofBits FTy.f32 0x41200000#32) o) (FloatOps.ofBits FTy.f32 0x00000000#32)))))))

/-- Times the named tenth it is the specification's offset: the guard is dead, `x − 0 = x`, `0 − y = −y`. -/
theorem rawSoftplus_tenth (o : Ideal .f32) :
    FloatOps.mulf (F := Ideal) (φ := .f32) (rawSoftplus o) (Named.named Cert.KernelIdeal.κ "inv_10" 0x3DCCCCCD#32) = softOffset o := by
  unfold rawSoftplus
  rw [cmpf_one_self, select_zero, tenth]
  simp only [Ideal.mulf_def, Ideal.addf_def, Ideal.subf_def, Ideal.maximumf_def, Ideal.exp_def, Ideal.log1p_def,
    Ideal.ofBits_def, Ideal.ofBits_zero_f32, absf_eq, sub_zero, zero_sub]
  rfl

/-- The correction term as the body spells it (`0 − |a − b|` over β, β the same word twice). -/
theorem correction_entry (a b : Ideal .f32) :
    FloatOps.mulf (F := Ideal) (φ := .f32) (FloatOps.ofBits FTy.f32 0x3B6BEDFA#32)
      (FloatOps.log1p (FloatOps.exp (FloatOps.divf
        (FloatOps.subf (FloatOps.ofBits FTy.f32 0x00000000#32) (FloatOps.absf (FloatOps.subf a b)))
        (FloatOps.ofBits FTy.f32 0x3B6BEDFA#32)))) = correction a b := by
  simp only [Ideal.mulf_def, Ideal.subf_def, Ideal.divf_def, Ideal.exp_def, Ideal.log1p_def,
    Ideal.ofBits_def, Ideal.ofBits_zero_f32, absf_eq, zero_sub]
  rfl

/-! ## Rows of a block -/

/-- The centre row of box `p` of a 128-box block. -/
theorem centre_row2 (x0 : Vec Ideal S128x2x256 .f32) (p : Fin 128) (d : Fin 256) :
    k0_pay1 (F := Ideal) x0 (ix2 p d) = x0 (ix3 p (0 : Fin 2) d) := by
  unfold k0_pay1
  exact middleRow_apply 0 x0 _ _ (0 : Fin 2) rfl p d

/-- The centre row of box `q` of a 16-box block. -/
theorem centre_row1 (x1 : Vec Ideal S16x2x256 .f32) (q : Fin 16) (d : Fin 256) :
    k0_pay2 (F := Ideal) x1 (ix2 q d) = x1 (ix3 q (0 : Fin 2) d) := by
  unfold k0_pay2
  exact middleRow_apply 0 x1 _ _ (0 : Fin 2) rfl q d

/-- The offset row of box `p` of a 128-box block, through softplus and the named tenth. -/
theorem offset_row2 (x0 : Vec Ideal S128x2x256 .f32) (p : Fin 128) (d : Fin 256) :
    k0_pay3 (F := Ideal) x0 (ix2 p d) = softOffset (x0 (ix3 p (1 : Fin 2) d)) := by
  have e : shapeCast S128x256 (extractStridedSlice S128x1x256 ![0, 1, 0] x0 slices_S128x2x256_o0_1_0_S128x1x256) shapeCasts_S128x1x256_S128x256 (ix2 p d) = x0 (ix3 p (1 : Fin 2) d) :=
    middleRow_apply 1 x0 _ _ (1 : Fin 2) rfl p d
  simp only [k0_pay3, mulf, addf, subf, maximumf, absf, exp, log1p, select, cmpf, broadcast]
  rw [e]
  exact rawSoftplus_tenth _

/-- The offset row of box `q` of a 16-box block, through softplus (the tenth is applied where the pairs are formed). -/
theorem offset_row1 (x1 : Vec Ideal S16x2x256 .f32) (q : Fin 16) (d : Fin 256) :
    k0_pay4 (F := Ideal) x1 (ix2 q d) = rawSoftplus (x1 (ix3 q (1 : Fin 2) d)) := by
  have e : shapeCast S16x256 (extractStridedSlice S16x1x256 ![0, 1, 0] x1 slices_S16x2x256_o0_1_0_S16x1x256) shapeCasts_S16x1x256_S16x256 (ix2 q d) = x1 (ix3 q (1 : Fin 2) d) :=
    middleRow_apply 1 x1 _ _ (1 : Fin 2) rfl q d
  simp only [k0_pay4, mulf, addf, subf, maximumf, absf, exp, log1p, select, cmpf, broadcast]
  rw [e]
  rfl

/-! ## Pairing the rows: `[128, 256]` against `[16, 256]` inside `[128, 16, 256]` -/

/-- A 128-row matrix stretched along a new middle axis reads, at `(p, q, d)`, its entry `(p, d)`. -/
theorem stretch_rows2 (u : FVec Ideal S128x256 .f32) (p : Fin 128) (q : Fin 16) (d : Fin 256) :
    broadcastTo S128x16x256 (shapeCast S128x1x256 u shapeCasts_S128x256_S128x1x256) broadcasts_S128x1x256_S128x16x256 (ix3 p q d)
      = u (ix2 p d) :=
  (broadcastTo_a1b_acb_apply _ _ p q d).trans (shapeCast_ab_a1b_apply u _ p (0 : Fin 1) d)

/-- A 16-row matrix stretched along a new leading axis reads, at `(p, q, d)`, its entry `(q, d)`. -/
theorem stretch_rows1 (w : FVec Ideal S16x256 .f32) (p : Fin 128) (q : Fin 16) (d : Fin 256) :
    broadcastTo S128x16x256 (shapeCast S1x16x256 w shapeCasts_S16x256_S1x16x256) broadcasts_S1x16x256_S128x16x256 (ix3 p q d)
      = w (ix2 q d) :=
  (broadcastTo_1cb_acb_apply _ _ p q d).trans (shapeCast_ab_1ab_apply w _ (0 : Fin 1) q d)

/-- The first store's value at `(p, q, d)`, over any centre and offset matrices. -/
theorem lower_entry (v3 v27 : FVec Ideal S128x256 .f32) (v7 v43 : FVec Ideal S16x256 .f32) (t : Ideal .f32)
    (p : Fin 128) (q : Fin 16) (d : Fin 256) :
    k0_pay6 (F := Ideal) v3 v7 v27 v43 t (ix3 p q d)
      = smoothMax (Ideal.logistic (v3 (ix2 p d) - v27 (ix2 p d)))
          (Ideal.logistic (v7 (ix2 q d) - FloatOps.mulf (v43 (ix2 q d)) t)) := by
  simp only [k0_pay6, k0_pay5, addf, mulf, subf, maximumf, absf, exp, log1p, divf, logistic, broadcast, stretch_rows2, stretch_rows1]
  rw [correction_entry]
  rfl

/-- The second store's value at `(p, q, d)`, over any centre and offset matrices. -/
theorem upper_entry (v3 v27 : FVec Ideal S128x256 .f32) (v7 v43 : FVec Ideal S16x256 .f32) (t : Ideal .f32)
    (p : Fin 128) (q : Fin 16) (d : Fin 256) :
    k0_pay7 (F := Ideal) v3 v7 v27 v43 t (ix3 p q d)
      = smoothMin (Ideal.logistic (v3 (ix2 p d) + v27 (ix2 p d)))
          (Ideal.logistic (v7 (ix2 q d) + FloatOps.mulf (v43 (ix2 q d)) t)) := by
  simp only [k0_pay7, k0_pay5, addf, mulf, subf, minimumf, absf, exp, log1p, divf, logistic, broadcast, stretch_rows2, stretch_rows1]
  rw [correction_entry]
  rfl

/-! ## What one grid point stores, from its two input blocks -/

/-- The first store at `(p, q, d)`: the smooth maximum of the lower corners of box `p` of the 128-box block and box
    `q` of the 16-box block at coordinate `d`. -/
theorem lower_block (x0 : Vec Ideal S128x2x256 .f32) (x1 : Vec Ideal S16x2x256 .f32) (p : Fin 128) (q : Fin 16) (d : Fin 256) :
    k0_pay6 (F := Ideal) (k0_pay1 x0) (k0_pay2 x1) (k0_pay3 x0) (k0_pay4 x1) (Named.named Cert.KernelIdeal.κ "inv_10" 0x3DCCCCCD#32) (ix3 p q d)
      = smoothMax (lowerCorner (x0 (ix3 p (0 : Fin 2) d)) (x0 (ix3 p (1 : Fin 2) d)))
          (lowerCorner (x1 (ix3 q (0 : Fin 2) d)) (x1 (ix3 q (1 : Fin 2) d))) := by
  rw [lower_entry, centre_row2, offset_row2, centre_row1, offset_row1, rawSoftplus_tenth]
  rfl

/-- The second store at `(p, q, d)`: the smooth minimum of the upper corners. -/
theorem upper_block (x0 : Vec Ideal S128x2x256 .f32) (x1 : Vec Ideal S16x2x256 .f32) (p : Fin 128) (q : Fin 16) (d : Fin 256) :
    k0_pay7 (F := Ideal) (k0_pay1 x0) (k0_pay2 x1) (k0_pay3 x0) (k0_pay4 x1) (Named.named Cert.KernelIdeal.κ "inv_10" 0x3DCCCCCD#32) (ix3 p q d)
      = smoothMin (upperCorner (x0 (ix3 p (0 : Fin 2) d)) (x0 (ix3 p (1 : Fin 2) d)))
          (upperCorner (x1 (ix3 q (0 : Fin 2) d)) (x1 (ix3 q (1 : Fin 2) d))) := by
  rw [upper_entry, centre_row2, offset_row2, centre_row1, offset_row1, rawSoftplus_tenth]
  rfl

end Cert.KernelIdeal.BlockValue
end
-- ==== Proof.KernelArrays.lean ====
/-
  The kernel's two result arrays after its run. The grid is 8 × 10: point (i, j) holds boxes 128·i … 128·i + 127 of
  the second family and boxes 16·j … 16·j + 15 of the first, and writes the [128, 16, 256] block at (i, j) of each
  output. So what a point writes back is its block of ONE whole-array function (the specification's), the blocks
  tile the [1024, 160, 256] outputs, and each output ends as that function of the argument arrays; the two reshapes
  after the region then number the pairs (n₂, n₁) along one axis.
-/
import proofs.«155455_j89215060672871_1_alg».proof.Proof.Gen.KernelIdeal.Frame
import proofs.«155455_j89215060672871_1_alg».proof.Proof.BlockValue
import Idealize.ShloMosaic.Lib.Pipeline.Value

set_option maxRecDepth 16384

noncomputable section

namespace Cert.KernelIdeal.Arrays

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.BlockValue Cert.BoxPairs

variable (m : (ℓ : Loc nD τ sig) → Buf (Elt Ideal) ℓ) (ρ : Dev nD → PrngReg)

theorem hz3 : (![0, 0, 0] : Fin 3 → Nat) = fun _ => 0 := funext fun a => by fin_cases a <;> rfl

/-- The printed index maps over the 8 × 10 grid: the 128-box block moves with the output block's first index, the
    16-box block with its second, both outputs move together, and nothing else moves. -/
theorem idx_facts : ∀ t : Fin cfg0.N,
    win0_0.index t (0 : Fin 3) = win0_2.index t (0 : Fin 3)
    ∧ win0_0.index t (1 : Fin 3) = 0 ∧ win0_0.index t (2 : Fin 3) = 0
    ∧ win0_1.index t (0 : Fin 3) = win0_2.index t (1 : Fin 3)
    ∧ win0_1.index t (1 : Fin 3) = 0 ∧ win0_1.index t (2 : Fin 3) = 0
    ∧ win0_2.index t (2 : Fin 3) = 0
    ∧ win0_3.index t (0 : Fin 3) = win0_2.index t (0 : Fin 3)
    ∧ win0_3.index t (1 : Fin 3) = win0_2.index t (1 : Fin 3)
    ∧ win0_3.index t (2 : Fin 3) = 0
    ∧ win0_2.index t (0 : Fin 3) ≤ 7 ∧ win0_2.index t (1 : Fin 3) ≤ 9 :=
  (by decide +kernel : ∀ t : Fin grid0.N, _)

/-- Every (block of 128, block of 16) pair is some grid point's. -/
theorem idx_onto : ∀ (b2 : Fin 8) (b1 : Fin 10), ∃ t : Fin cfg0.N, win0_2.index t = ![b2.val, b1.val, 0] ∧ win0_3.index t = ![b2.val, b1.val, 0] :=
  (by decide +kernel : ∀ (b2 : Fin 8) (b1 : Fin 10), ∃ t : Fin grid0.N, win0_2.index t = ![b2.val, b1.val, 0] ∧ win0_3.index t = ![b2.val, b1.val, 0])

/-- Row `(p, k)` of the 128-box block at a point is row `(n, k)` of the second family's array, `n` the block's first
    box plus `p`. -/
theorem rows2 (c : Dev nD) (t : Fin cfg0.N) (p : Fin 128) (k : Fin 2) (d : Fin 256) (n : Fin 1024)
    (hn : n.val = win0_2.index t (0 : Fin 3) * 128 + p.val) :
    iblk m c 0 t (ix3 p k d) = V m c main_arg1 (ix3 n k d) := by
  show V m c main_arg1 (((cfg0.win 0).blk t).view.emb (ix3 p k d)) = V m c main_arg1 (ix3 n k d)
  obtain ⟨e0, e1, e2, -⟩ := idx_facts t
  have h : ((cfg0.win 0).blk t).view.emb (ix3 p k d) = ix3 n k d := by
    funext a; apply Fin.ext
    match a with
    | ⟨0, _⟩ => show win0_0.index t (0 : Fin 3) * 128 + 1 * p.val = n.val; omega
    | ⟨1, _⟩ => show win0_0.index t (1 : Fin 3) * 2 + 1 * k.val = k.val; omega
    | ⟨2, _⟩ => show win0_0.index t (2 : Fin 3) * 256 + 1 * d.val = d.val; omega
  rw [h]

/-- Row `(q, k)` of the 16-box block at a point is row `(n, k)` of the first family's array. -/
theorem rows1 (c : Dev nD) (t : Fin cfg0.N) (q : Fin 16) (k : Fin 2) (d : Fin 256) (n : Fin 160)
    (hn : n.val = win0_2.index t (1 : Fin 3) * 16 + q.val) :
    iblk m c 1 t (ix3 q k d) = V m c main_arg0 (ix3 n k d) := by
  show V m c main_arg0 (((cfg0.win 1).blk t).view.emb (ix3 q k d)) = V m c main_arg0 (ix3 n k d)
  obtain ⟨-, -, -, e3, e4, e5, -⟩ := idx_facts t
  have h : ((cfg0.win 1).blk t).view.emb (ix3 q k d) = ix3 n k d := by
    funext a; apply Fin.ext
    match a with
    | ⟨0, _⟩ => show win0_1.index t (0 : Fin 3) * 16 + 1 * q.val = n.val; omega
    | ⟨1, _⟩ => show win0_1.index t (1 : Fin 3) * 2 + 1 * k.val = k.val; omega
    | ⟨2, _⟩ => show win0_1.index t (2 : Fin 3) * 256 + 1 * d.val = d.val; omega
  rw [h]

/-- Entry `(p, q, d)` of the first output's block at a point sits at `(n2, n1, d)` of the array. -/
theorem out_emb2 (t : Fin cfg0.N) (p : Fin 128) (q : Fin 16) (d : Fin 256) (n2 : Fin 1024) (n1 : Fin 160)
    (h2 : n2.val = win0_2.index t (0 : Fin 3) * 128 + p.val) (h1 : n1.val = win0_2.index t (1 : Fin 3) * 16 + q.val) :
    ((cfg0.win 2).blk t).view.emb (ix3 p q d) = ix3 n2 n1 d := by
  obtain ⟨-, -, -, -, -, -, e6, -⟩ := idx_facts t
  funext a; apply Fin.ext
  match a with
  | ⟨0, _⟩ => show win0_2.index t (0 : Fin 3) * 128 + 1 * p.val = n2.val; omega
  | ⟨1, _⟩ => show win0_2.index t (1 : Fin 3) * 16 + 1 * q.val = n1.val; omega
  | ⟨2, _⟩ => show win0_2.index t (2 : Fin 3) * 256 + 1 * d.val = d.val; omega

/-- The same for the second output. -/
theorem out_emb3 (t : Fin cfg0.N) (p : Fin 128) (q : Fin 16) (d : Fin 256) (n2 : Fin 1024) (n1 : Fin 160)
    (h2 : n2.val = win0_2.index t (0 : Fin 3) * 128 + p.val) (h1 : n1.val = win0_2.index t (1 : Fin 3) * 16 + q.val) :
    ((cfg0.win 3).blk t).view.emb (ix3 p q d) = ix3 n2 n1 d := by
  obtain ⟨-, -, -, -, -, -, -, e7, e8, e9, -⟩ := idx_facts t
  funext a; apply Fin.ext
  match a with
  | ⟨0, _⟩ => show win0_3.index t (0 : Fin 3) * 128 + 1 * p.val = n2.val; omega
  | ⟨1, _⟩ => show win0_3.index t (1 : Fin 3) * 16 + 1 * q.val = n1.val; omega
  | ⟨2, _⟩ => show win0_3.index t (2 : Fin 3) * 256 + 1 * d.val = d.val; omega

/-- WHAT A POINT WRITES BACK to the first output is its block of the specification's lower array. -/
theorem flushed2_eq (c : Dev nD) (t : Fin cfg0.N) :
    (dats m 0 c).flushed 2 t = ((cfg0.win 2).blk t).view.read (Elt Ideal) (lowerArray (V m c main_arg0) (V m c main_arg1)) := by
  show (cfg0.win 2).cut (grid0.coords t) ((dats m 0 c).after 2 t) = _
  rw [after0_2]
  unfold out0_2
  rw [View.canon_unit_zero hz3]
  simp only [View.ld_unit_zero (S := S128x2x256) hz3, View.ld_unit_zero (S := S16x2x256) hz3]
  obtain ⟨-, -, -, -, -, -, -, -, -, -, b0, b1⟩ := idx_facts t
  funext j
  obtain ⟨p, q, d, rfl⟩ : ∃ (p : Fin 128) (q : Fin 16) (d : Fin 256), j = ix3 p q d := ⟨j 0, j 1, j 2, eq_ix3 j⟩
  have hn2 : win0_2.index t (0 : Fin 3) * 128 + p.val < 1024 := by have := p.isLt; omega
  have hn1 : win0_2.index t (1 : Fin 3) * 16 + q.val < 160 := by have := q.isLt; omega
  refine (lower_block (iblk m c 0 t) (iblk m c 1 t) p q d).trans ?_
  rw [rows2 m c t p (0 : Fin 2) d ⟨_, hn2⟩ rfl, rows2 m c t p (1 : Fin 2) d ⟨_, hn2⟩ rfl,
    rows1 m c t q (0 : Fin 2) d ⟨_, hn1⟩ rfl, rows1 m c t q (1 : Fin 2) d ⟨_, hn1⟩ rfl]
  show _ = lowerArray (V m c main_arg0) (V m c main_arg1) (((cfg0.win 2).blk t).view.emb (ix3 p q d))
  rw [out_emb2 t p q d ⟨_, hn2⟩ ⟨_, hn1⟩ rfl rfl, lowerArray_ix3]
  rfl

/-- WHAT A POINT WRITES BACK to the second output is its block of the specification's upper array. -/
theorem flushed3_eq (c : Dev nD) (t : Fin cfg0.N) :
    (dats m 0 c).flushed 3 t = ((cfg0.win 3).blk t).view.read (Elt Ideal) (upperArray (V m c main_arg0) (V m c main_arg1)) := by
  show (cfg0.win 3).cut (grid0.coords t) ((dats m 0 c).after 3 t) = _
  rw [after0_3]
  unfold out0_3
  rw [View.canon_unit_zero hz3]
  simp only [View.ld_unit_zero (S := S128x2x256) hz3, View.ld_unit_zero (S := S16x2x256) hz3]
  obtain ⟨-, -, -, -, -, -, -, -, -, -, b0, b1⟩ := idx_facts t
  funext j
  obtain ⟨p, q, d, rfl⟩ : ∃ (p : Fin 128) (q : Fin 16) (d : Fin 256), j = ix3 p q d := ⟨j 0, j 1, j 2, eq_ix3 j⟩
  have hn2 : win0_2.index t (0 : Fin 3) * 128 + p.val < 1024 := by have := p.isLt; omega
  have hn1 : win0_2.index t (1 : Fin 3) * 16 + q.val < 160 := by have := q.isLt; omega
  refine (upper_block (iblk m c 0 t) (iblk m c 1 t) p q d).trans ?_
  rw [rows2 m c t p (0 : Fin 2) d ⟨_, hn2⟩ rfl, rows2 m c t p (1 : Fin 2) d ⟨_, hn2⟩ rfl,
    rows1 m c t q (0 : Fin 2) d ⟨_, hn1⟩ rfl, rows1 m c t q (1 : Fin 2) d ⟨_, hn1⟩ rfl]
  show _ = upperArray (V m c main_arg0) (V m c main_arg1) (((cfg0.win 3).blk t).view.emb (ix3 p q d))
  rw [out_emb3 t p q d ⟨_, hn2⟩ ⟨_, hn1⟩ rfl rfl, upperArray_ix3]
  rfl

/-- An index of the first output is in a point's block iff each coordinate is in the block's range. -/
theorem mem_blk2 (t : Fin cfg0.N) (i : S1024x160x256.Idx) :
    i ∈ ((cfg0.win 2).blk t).view.set ↔ ∀ a : Fin 3, win0_2.index t a * S128x16x256.size a ≤ (i a).val ∧ (i a).val < win0_2.index t a * S128x16x256.size a + S128x16x256.size a := by
  show i ∈ ((View.whole main_v0_0).slice (win0_2.rect t)).set ↔ _
  rw [View.set_slice_whole, Rect.mem_set_unit]
  exact Iff.rfl

theorem mem_blk3 (t : Fin cfg0.N) (i : S1024x160x256.Idx) :
    i ∈ ((cfg0.win 3).blk t).view.set ↔ ∀ a : Fin 3, win0_3.index t a * S128x16x256.size a ≤ (i a).val ∧ (i a).val < win0_3.index t a * S128x16x256.size a + S128x16x256.size a := by
  show i ∈ ((View.whole main_v0_1).slice (win0_3.rect t)).set ↔ _
  rw [View.set_slice_whole, Rect.mem_set_unit]
  exact Iff.rfl

/-- The blocks tile the output: pair `(n2, n1)` lies in the block of the point at `(n2 / 128, n1 / 16)`. -/
theorem cover2 (i : S1024x160x256.Idx) : ∃ t : Fin cfg0.N, (cfg0.win 2).flush t = true ∧ i ∈ ((cfg0.win 2).blk t).view.set := by
  have hi0 : (i 0).val < 1024 := (i 0).isLt
  have hi1 : (i 1).val < 160 := (i 1).isLt
  have hi2 : (i 2).val < 256 := (i 2).isLt
  obtain ⟨t, ht, -⟩ := idx_onto ⟨(i 0).val / 128, by omega⟩ ⟨(i 1).val / 16, by omega⟩
  have q0 : win0_2.index t (0 : Fin 3) = (i 0).val / 128 := congrFun ht 0
  have q1 : win0_2.index t (1 : Fin 3) = (i 1).val / 16 := congrFun ht 1
  have q2 : win0_2.index t (2 : Fin 3) = 0 := congrFun ht 2
  refine ⟨t, flush0_2 t, ?_⟩
  rw [mem_blk2]
  intro a
  match a with
  | ⟨0, _⟩ => show win0_2.index t (0 : Fin 3) * 128 ≤ (i 0).val ∧ (i 0).val < win0_2.index t (0 : Fin 3) * 128 + 128; omega
  | ⟨1, _⟩ => show win0_2.index t (1 : Fin 3) * 16 ≤ (i 1).val ∧ (i 1).val < win0_2.index t (1 : Fin 3) * 16 + 16; omega
  | ⟨2, _⟩ => show win0_2.index t (2 : Fin 3) * 256 ≤ (i 2).val ∧ (i 2).val < win0_2.index t (2 : Fin 3) * 256 + 256; omega

theorem cover3 (i : S1024x160x256.Idx) : ∃ t : Fin cfg0.N, (cfg0.win 3).flush t = true ∧ i ∈ ((cfg0.win 3).blk t).view.set := by
  have hi0 : (i 0).val < 1024 := (i 0).isLt
  have hi1 : (i 1).val < 160 := (i 1).isLt
  have hi2 : (i 2).val < 256 := (i 2).isLt
  obtain ⟨t, -, ht⟩ := idx_onto ⟨(i 0).val / 128, by omega⟩ ⟨(i 1).val / 16, by omega⟩
  have q0 : win0_3.index t (0 : Fin 3) = (i 0).val / 128 := congrFun ht 0
  have q1 : win0_3.index t (1 : Fin 3) = (i 1).val / 16 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 128 ≤ (i 0).val ∧ (i 0).val < win0_3.index t (0 : Fin 3) * 128 + 128; omega
  | ⟨1, _⟩ => show win0_3.index t (1 : Fin 3) * 16 ≤ (i 1).val ∧ (i 1).val < win0_3.index t (1 : Fin 3) * 16 + 16; omega
  | ⟨2, _⟩ => show win0_3.index t (2 : Fin 3) * 256 ≤ (i 2).val ∧ (i 2).val < win0_3.index t (2 : Fin 3) * 256 + 256; omega

/-- THE FIRST OUTPUT after the region is the specification's lower array of the argument arrays. -/
theorem final2 (c : Dev nD) : (dats m 0 c).arrAt 2 cfg0.N = lowerArray (m ((c : Thread nD τ).loc main_arg0)) (m ((c : Thread nD τ).loc main_arg1)) :=
  (dats m 0 c).arrAt_eq_of_cover 2 (lowerArray (V m c main_arg0) (V m c main_arg1)) (fun t _ => flushed2_eq m c t) cover2

/-- THE SECOND OUTPUT after the region is the specification's upper array. -/
theorem final3 (c : Dev nD) : (dats m 0 c).arrAt 3 cfg0.N = upperArray (m ((c : Thread nD τ).loc main_arg0)) (m ((c : Thread nD τ).loc main_arg1)) :=
  (dats m 0 c).arrAt_eq_of_cover 3 (upperArray (V m c main_arg0) (V m c main_arg1)) (fun t _ => flushed3_eq m c t) cover3

theorem tail_v1 (c : Dev nD) : Pipeline.afterTail₀ cfgs (dats m) 0 (V0 m) [hostOps1] c main_v1
    = shapeCast S163840x256 ((dats m 0 c).arrAt 2 cfg0.N) shapeCasts_S1024x160x256_S163840x256 := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0_0)
      = (dats m 0 c).arrAt 2 cfg0.N := Pipeline.withArrays_arr spec0 launch0.win.arr_inj c _ _ 2
  rw [e]
  rfl

theorem tail_v2 (c : Dev nD) : Pipeline.afterTail₀ cfgs (dats m) 0 (V0 m) [hostOps1] c main_v2
    = shapeCast S163840x256 ((dats m 0 c).arrAt 3 cfg0.N) shapeCasts_S1024x160x256_S163840x256 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v0_1)
      = (dats m 0 c).arrAt 3 cfg0.N := Pipeline.withArrays_arr spec0 launch0.win.arr_inj c _ _ 3
  rw [e]
  rfl

theorem v1_rest : main_v1 ∈ Pipeline.restRefs sig (cfgs 0).spec :=
  Pipeline.mem_restRefs_of main_v1 rfl (fun w => by fin_cases w <;> decide)

theorem v2_rest : main_v2 ∈ Pipeline.restRefs sig (cfgs 0).spec :=
  Pipeline.mem_restRefs_of main_v2 rfl (fun w => by fin_cases w <;> decide)

/-- THE KERNEL'S RUN, READ: each result is the specification's array with its pairs numbered along one axis, and the
    arguments are unchanged. -/
theorem run : θ_run defs (onTc (τ := τ) (main (F := Ideal))) ⟨m, fun _ => 0, ρ⟩ fun r => ∀ c : Dev nD,
      r.2.mem ((c.tc : Thread nD τ).loc main_v1)
        = shapeCast S163840x256 (lowerArray (m ((c.tc : Thread nD τ).loc main_arg0)) (m ((c.tc : Thread nD τ).loc main_arg1))) shapeCasts_S1024x160x256_S163840x256
      ∧ r.2.mem ((c.tc : Thread nD τ).loc main_v2)
        = shapeCast S163840x256 (upperArray (m ((c.tc : Thread nD τ).loc main_arg0)) (m ((c.tc : Thread nD τ).loc main_arg1))) shapeCasts_S1024x160x256_S163840x256
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v1 v1_rest).trans ((tail_v1 m c).trans (by rw [final2])),
     ((h c).2 main_v2 v2_rest).trans ((tail_v2 m c).trans (by rw [final3])),
     ((h c).1 1).trans (((dats m 0 c).arrAt_in 1 rfl _).trans ((A_eq m c 1).trans (V_main_arg0 m c))),
     ((h c).1 0).trans (((dats m 0 c).arrAt_in 0 rfl _).trans ((A_eq m c 0).trans (V_main_arg1 m c)))⟩)
    (run_main m ρ)

end Cert.KernelIdeal.Arrays
end
-- ==== Proof.ReferenceValue.lean ====
/-
  The reference program, read entry by entry, is the specification. Each family's offset rows pass through softplus and
  a division by ten (the product with the tenth, on every extended real); the corners are 1 / (1 + exp(−x)), which is the
  logistic; the pairs are formed by stretching both families' corner matrices to [1024, 160, 256]; and the reference takes
  one more maximum (minimum) of the smooth maximum (minimum) with the plain one, which the correction's sign absorbs.
-/
import proofs.«155455_j89215060672871_1_alg».proof.Proof.Gen.ReferenceIdeal.Read
import proofs.«155455_j89215060672871_1_alg».proof.Proof.BoxSpec
import proofs.«155455_j89215060672871_1_alg».proof.Proof.LibMiddleUnitAxis

noncomputable section

namespace Cert.ReferenceIdeal.RefValue

open Idealize.ShloMosaic Idealize.ShloMosaic.ValueIdx Cert.ReferenceIdeal Cert.ReferenceIdeal.Gen Cert.ReferenceIdeal.Read Cert.BoxPairs

/-- Closes `slice-index (reshape-index (n, d)) = (n, k, d)`: the reshape from `[N, 1, 256]` reads row-major,
    `(n · 256 + d) / 256 = n` and `(n · 256 + d) % 256 = d`, and the slice fixes the middle coordinate. -/
local macro "row_index" n:ident d:ident : tactic => `(tactic| (
  funext a; apply Fin.ext
  have hn := ($n).isLt; have hd := ($d).isLt
  match a with
  | ⟨0, _⟩ => show (($n).val * 256 + ($d).val) / 256 = ($n).val; omega
  | ⟨1, _⟩ => rfl
  | ⟨2, _⟩ => show (($n).val * 256 + ($d).val) % 256 = ($d).val; omega))

/-- Closes `column-index (stretch-index (n₂, n₁, d)) = (n, d)`: both coordinates are copied. -/
local macro "pair_index" : tactic => `(tactic| (
  funext a; apply Fin.ext
  match a with
  | ⟨0, _⟩ => rfl
  | ⟨1, _⟩ => rfl))

/-! ## Scalars -/

theorem absf_eq (x : EReal) : FloatOps.absf (F := Ideal) (φ := .f32) x = absE x := rfl

/-- No extended real differs from itself: the guard `x ≠ x` is never taken. -/
theorem cmpf_une_self (x : EReal) : FloatOps.cmpf (F := Ideal) (φ := .f32) .une x x = 0#1 := by
  show Ideal.cmp .une x x = 0#1
  simp [Ideal.cmp]

/-- The softplus of ten times an entry, as the reference spells it: `x ≠ x` guarding `x + 0`, else
    `max(x, 0) + log(1 + exp(−|x − 0|))`. -/
def refSoftplus (o : Ideal .f32) : Ideal .f32 :=
  Scalar.select
    (FloatOps.cmpf CmpFPredicate.une
      (FloatOps.subf (FloatOps.mulf (FloatOps.ofBits FTy.f32 0x41200000#32) o) (FloatOps.ofBits FTy.f32 0x00000000#32))
      (FloatOps.subf (FloatOps.mulf (FloatOps.ofBits FTy.f32 0x41200000#32) o) (FloatOps.ofBits FTy.f32 0x00000000#32)))
    (FloatOps.addf (FloatOps.mulf (FloatOps.ofBits FTy.f32 0x41200000#32) o) (FloatOps.ofBits FTy.f32 0x00000000#32))
    (FloatOps.addf
      (FloatOps.maximumf (FloatOps.mulf (FloatOps.ofBits FTy.f32 0x41200000#32) o) (FloatOps.ofBits FTy.f32 0x00000000#32))
      (FloatOps.hostUnary HostUnaryOp.log1p (FloatOps.hostUnary HostUnaryOp.exp (FloatOps.hostNegf (FloatOps.hostAbsf
        (FloatOps.subf (FloatOps.mulf (FloatOps.ofBits FTy.f32 0x41200000#32) o) (FloatOps.ofBits FTy.f32 0x00000000#32)))))))

/-- Divided by ten it is the specification's offset: the guard is dead, `x − 0 = x`, and the quotient by the real ten
    is the product with the tenth. -/
theorem refSoftplus_div (o : Ideal .f32) :
    FloatOps.hostDivf (F := Ideal) (φ := .f32) (refSoftplus o) (FloatOps.ofBits FTy.f32 0x41200000#32) = softOffset o := by
  unfold refSoftplus softOffset
  rw [cmpf_une_self, select_zero]
  simp only [Ideal.hostDivf_def, Ideal.mulf_def, Ideal.addf_def, Ideal.subf_def, Ideal.maximumf_def, Ideal.hostUnary_exp_def,
    Ideal.hostUnary_log1p_def, Ideal.hostNegf_def, Ideal.hostAbsf_def, Ideal.negf_def, Ideal.ofBits_def, Ideal.ofBits_zero_f32,
    absf_eq, sub_zero, ofBits_ten, Ideal.div_coe (by norm_num : (10 : ℝ) ≠ 0)]

/-- `1 / (1 + exp(−x))` with the literal ones is the logistic. -/
theorem ref_logistic (x : Ideal .f32) :
    FloatOps.hostDivf (F := Ideal) (φ := .f32) (FloatOps.ofBits FTy.f32 0x3F800000#32)
      (FloatOps.addf (FloatOps.ofBits FTy.f32 0x3F800000#32) (FloatOps.hostUnary HostUnaryOp.exp (FloatOps.hostNegf x)))
      = Ideal.logistic x := by
  simp only [Ideal.hostDivf_def, Ideal.addf_def, Ideal.hostUnary_exp_def, Ideal.hostNegf_def, Ideal.negf_def, Ideal.ofBits_def, ofBits_one]
  rfl

/-- The correction term as the reference spells it. -/
theorem ref_correction (a b : Ideal .f32) :
    FloatOps.mulf (F := Ideal) (φ := .f32) (FloatOps.ofBits FTy.f32 0x3B6BEDFA#32)
      (FloatOps.hostUnary HostUnaryOp.log1p (FloatOps.hostUnary HostUnaryOp.exp (FloatOps.hostDivf
        (FloatOps.hostNegf (FloatOps.hostAbsf (FloatOps.subf a b))) (FloatOps.ofBits FTy.f32 0x3B6BEDFA#32)))) = correction a b := by
  simp only [Ideal.mulf_def, Ideal.subf_def, Ideal.hostDivf_def, Ideal.hostUnary_exp_def, Ideal.hostUnary_log1p_def,
    Ideal.hostNegf_def, Ideal.hostAbsf_def, Ideal.negf_def, Ideal.ofBits_def, absf_eq]
  rfl

/-- The reference's first result entry from two corners: the extra maximum is absorbed. -/
theorem ref_smoothMax (a b : Ideal .f32) :
    FloatOps.maximumf (F := Ideal) (φ := .f32)
      (FloatOps.addf (FloatOps.maximumf a b)
        (FloatOps.mulf (FloatOps.ofBits FTy.f32 0x3B6BEDFA#32)
          (FloatOps.hostUnary HostUnaryOp.log1p (FloatOps.hostUnary HostUnaryOp.exp (FloatOps.hostDivf
            (FloatOps.hostNegf (FloatOps.hostAbsf (FloatOps.subf a b))) (FloatOps.ofBits FTy.f32 0x3B6BEDFA#32))))))
      (FloatOps.maximumf a b) = smoothMax a b := by
  rw [ref_correction]
  exact max_smoothMax a b

/-- The reference's second result entry from two corners: the extra minimum is absorbed. -/
theorem ref_smoothMin (a b : Ideal .f32) :
    FloatOps.minimumf (F := Ideal) (φ := .f32)
      (FloatOps.subf (FloatOps.minimumf a b)
        (FloatOps.mulf (FloatOps.ofBits FTy.f32 0x3B6BEDFA#32)
          (FloatOps.hostUnary HostUnaryOp.log1p (FloatOps.hostUnary HostUnaryOp.exp (FloatOps.hostDivf
            (FloatOps.hostNegf (FloatOps.hostAbsf (FloatOps.subf a b))) (FloatOps.ofBits FTy.f32 0x3B6BEDFA#32))))))
      (FloatOps.minimumf a b) = smoothMin a b := by
  rw [ref_correction]
  exact min_smoothMin a b

/-! ## The first family: offsets and corners, row by row -/

theorem offset1 (x0 : (⟨S160x2x256, .f32⟩ : BufTy).Contents (Elt Ideal)) (n : Fin 160) (d : Fin 256) :
    val_main_v6 (F := Ideal) x0 (ix2 n d) = softOffset (x0 (ix3 n (1 : Fin 2) d)) := by
  have i1 : idx_main_v0 (idx_main_v1 (ix2 n d)) = ix3 n (1 : Fin 2) d := by row_index n d
  simp only [val_main_v6_apply, val_main_v5_apply, val_main_cst_0_apply, val_main_v4_apply, val_main_call0_v4_apply, val_main_call0_v3_apply, val_main_call0_v2_apply, val_main_call0_cst_apply, val_main_call0_v6_apply, val_main_call0_v5_apply, val_main_call0_v11_apply, val_main_call0_v10_apply, val_main_call0_v9_apply, val_main_call0_v8_apply, val_main_call0_v7_apply, val_main_call0_v1_apply, val_main_call0_v0_apply, val_main_v3_apply, val_main_v2_apply, val_main_cst_apply, val_main_v1_apply, val_main_v0_apply, i1]
  exact refSoftplus_div _

theorem lower1 (x0 : (⟨S160x2x256, .f32⟩ : BufTy).Contents (Elt Ideal)) (n : Fin 160) (d : Fin 256) :
    val_main_v15 (F := Ideal) x0 (ix2 n d) = lowerCorner (x0 (ix3 n (0 : Fin 2) d)) (x0 (ix3 n (1 : Fin 2) d)) := by
  have i0 : idx_main_v7 (idx_main_v8 (ix2 n d)) = ix3 n (0 : Fin 2) d := by row_index n d
  simp only [val_main_v15_apply, val_main_v14_apply, val_main_cst_2_apply, val_main_v13_apply, val_main_v12_apply, val_main_cst_1_apply, val_main_v11_apply, val_main_v10_apply, val_main_v9_apply, val_main_v8_apply, val_main_v7_apply, i0]
  rw [offset1]
  exact ref_logistic _

theorem upper1 (x0 : (⟨S160x2x256, .f32⟩ : BufTy).Contents (Elt Ideal)) (n : Fin 160) (d : Fin 256) :
    val_main_v24 (F := Ideal) x0 (ix2 n d) = upperCorner (x0 (ix3 n (0 : Fin 2) d)) (x0 (ix3 n (1 : Fin 2) d)) := by
  have i0 : idx_main_v16 (idx_main_v17 (ix2 n d)) = ix3 n (0 : Fin 2) d := by row_index n d
  simp only [val_main_v24_apply, val_main_v23_apply, val_main_cst_4_apply, val_main_v22_apply, val_main_v21_apply, val_main_cst_3_apply, val_main_v20_apply, val_main_v19_apply, val_main_v18_apply, val_main_v17_apply, val_main_v16_apply, i0]
  rw [offset1]
  exact ref_logistic _

/-! ## The second family -/

theorem offset2 (x1 : (⟨S1024x2x256, .f32⟩ : BufTy).Contents (Elt Ideal)) (n : Fin 1024) (d : Fin 256) :
    val_main_v31 (F := Ideal) x1 (ix2 n d) = softOffset (x1 (ix3 n (1 : Fin 2) d)) := by
  have i1 : idx_main_v25 (idx_main_v26 (ix2 n d)) = ix3 n (1 : Fin 2) d := by row_index n d
  simp only [val_main_v31_apply, val_main_v30_apply, val_main_cst_6_apply, val_main_v29_apply, val_main_call1_v4_apply, val_main_call1_v3_apply, val_main_call1_v2_apply, val_main_call1_cst_apply, val_main_call1_v6_apply, val_main_call1_v5_apply, val_main_call1_v11_apply, val_main_call1_v10_apply, val_main_call1_v9_apply, val_main_call1_v8_apply, val_main_call1_v7_apply, val_main_call1_v1_apply, val_main_call1_v0_apply, val_main_v28_apply, val_main_v27_apply, val_main_cst_5_apply, val_main_v26_apply, val_main_v25_apply, i1]
  exact refSoftplus_div _

theorem lower2 (x1 : (⟨S1024x2x256, .f32⟩ : BufTy).Contents (Elt Ideal)) (n : Fin 1024) (d : Fin 256) :
    val_main_v40 (F := Ideal) x1 (ix2 n d) = lowerCorner (x1 (ix3 n (0 : Fin 2) d)) (x1 (ix3 n (1 : Fin 2) d)) := by
  have i0 : idx_main_v32 (idx_main_v33 (ix2 n d)) = ix3 n (0 : Fin 2) d := by row_index n d
  simp only [val_main_v40_apply, val_main_v39_apply, val_main_cst_8_apply, val_main_v38_apply, val_main_v37_apply, val_main_cst_7_apply, val_main_v36_apply, val_main_v35_apply, val_main_v34_apply, val_main_v33_apply, val_main_v32_apply, i0]
  rw [offset2]
  exact ref_logistic _

theorem upper2 (x1 : (⟨S1024x2x256, .f32⟩ : BufTy).Contents (Elt Ideal)) (n : Fin 1024) (d : Fin 256) :
    val_main_v49 (F := Ideal) x1 (ix2 n d) = upperCorner (x1 (ix3 n (0 : Fin 2) d)) (x1 (ix3 n (1 : Fin 2) d)) := by
  have i0 : idx_main_v41 (idx_main_v42 (ix2 n d)) = ix3 n (0 : Fin 2) d := by row_index n d
  simp only [val_main_v49_apply, val_main_v48_apply, val_main_cst_10_apply, val_main_v47_apply, val_main_v46_apply, val_main_cst_9_apply, val_main_v45_apply, val_main_v44_apply, val_main_v43_apply, val_main_v42_apply, val_main_v41_apply, i0]
  rw [offset2]
  exact ref_logistic _

/-! ## The pairs -/

theorem lower_pair (x0 : (⟨S160x2x256, .f32⟩ : BufTy).Contents (Elt Ideal)) (x1 : (⟨S1024x2x256, .f32⟩ : BufTy).Contents (Elt Ideal)) (n2 : Fin 1024) (n1 : Fin 160) (d : Fin 256) :
    val_main_v70 (F := Ideal) x0 x1 (ix3 n2 n1 d) = pairLower x0 x1 n2 n1 d := by
  have a1 : idx_main_v50 (idx_main_v52 (ix3 n2 n1 d)) = ix2 n2 d := by pair_index
  have a2 : idx_main_v50 (idx_main_v55 (ix3 n2 n1 d)) = ix2 n2 d := by pair_index
  have a3 : idx_main_v50 (idx_main_v67 (ix3 n2 n1 d)) = ix2 n2 d := by pair_index
  have b1 : idx_main_v51 (idx_main_v53 (ix3 n2 n1 d)) = ix2 n1 d := by pair_index
  have b2 : idx_main_v51 (idx_main_v56 (ix3 n2 n1 d)) = ix2 n1 d := by pair_index
  have b3 : idx_main_v51 (idx_main_v68 (ix3 n2 n1 d)) = ix2 n1 d := by pair_index
  simp only [val_main_v70_apply, val_main_v69_apply, val_main_v68_apply, val_main_v67_apply, val_main_v66_apply, val_main_v65_apply, val_main_v64_apply, val_main_cst_12_apply, val_main_v63_apply, val_main_v62_apply, val_main_v61_apply, val_main_v60_apply, val_main_cst_11_apply, val_main_v59_apply, val_main_v58_apply, val_main_v57_apply, val_main_v56_apply, val_main_v55_apply, val_main_v54_apply, val_main_v53_apply, val_main_v52_apply, val_main_v51_apply, val_main_v50_apply, a1, a2, a3, b1, b2, b3]
  rw [lower2, lower1]
  exact ref_smoothMax _ _

theorem upper_pair (x0 : (⟨S160x2x256, .f32⟩ : BufTy).Contents (Elt Ideal)) (x1 : (⟨S1024x2x256, .f32⟩ : BufTy).Contents (Elt Ideal)) (n2 : Fin 1024) (n1 : Fin 160) (d : Fin 256) :
    val_main_v91 (F := Ideal) x0 x1 (ix3 n2 n1 d) = pairUpper x0 x1 n2 n1 d := by
  have a1 : idx_main_v71 (idx_main_v73 (ix3 n2 n1 d)) = ix2 n2 d := by pair_index
  have a2 : idx_main_v71 (idx_main_v76 (ix3 n2 n1 d)) = ix2 n2 d := by pair_index
  have a3 : idx_main_v71 (idx_main_v88 (ix3 n2 n1 d)) = ix2 n2 d := by pair_index
  have b1 : idx_main_v72 (idx_main_v74 (ix3 n2 n1 d)) = ix2 n1 d := by pair_index
  have b2 : idx_main_v72 (idx_main_v77 (ix3 n2 n1 d)) = ix2 n1 d := by pair_index
  have b3 : idx_main_v72 (idx_main_v89 (ix3 n2 n1 d)) = ix2 n1 d := by pair_index
  simp only [val_main_v91_apply, val_main_v90_apply, val_main_v89_apply, val_main_v88_apply, val_main_v87_apply, val_main_v86_apply, val_main_v85_apply, val_main_cst_14_apply, val_main_v84_apply, val_main_v83_apply, val_main_v82_apply, val_main_v81_apply, val_main_cst_13_apply, val_main_v80_apply, val_main_v79_apply, val_main_v78_apply, val_main_v77_apply, val_main_v76_apply, val_main_v75_apply, val_main_v74_apply, val_main_v73_apply, val_main_v72_apply, val_main_v71_apply, a1, a2, a3, b1, b2, b3]
  rw [upper2, upper1]
  exact ref_smoothMin _ _

/-! ## The two results -/

/-- The reference's first array before its last reshape is the specification's lower array. -/
theorem lowerArray_eq (x0 : (⟨S160x2x256, .f32⟩ : BufTy).Contents (Elt Ideal)) (x1 : (⟨S1024x2x256, .f32⟩ : BufTy).Contents (Elt Ideal)) : val_main_v70 (F := Ideal) x0 x1 = lowerArray x0 x1 := by
  funext i
  obtain ⟨n2, n1, d, rfl⟩ : ∃ (n2 : Fin 1024) (n1 : Fin 160) (d : Fin 256), i = ix3 n2 n1 d := ⟨i 0, i 1, i 2, eq_ix3 i⟩
  rw [lower_pair, lowerArray_ix3]

/-- The reference's second array before its last reshape is the specification's upper array. -/
theorem upperArray_eq (x0 : (⟨S160x2x256, .f32⟩ : BufTy).Contents (Elt Ideal)) (x1 : (⟨S1024x2x256, .f32⟩ : BufTy).Contents (Elt Ideal)) : val_main_v91 (F := Ideal) x0 x1 = upperArray x0 x1 := by
  funext i
  obtain ⟨n2, n1, d, rfl⟩ : ∃ (n2 : Fin 1024) (n1 : Fin 160) (d : Fin 256), i = ix3 n2 n1 d := ⟨i 0, i 1, i 2, eq_ix3 i⟩
  rw [upper_pair, upperArray_ix3]

/-- The first result: the lower array with its pairs numbered along one axis. -/
theorem out0_eq (x0 : (⟨S160x2x256, .f32⟩ : BufTy).Contents (Elt Ideal)) (x1 : (⟨S1024x2x256, .f32⟩ : BufTy).Contents (Elt Ideal)) :
    val_main_v92 (F := Ideal) x0 x1 = shapeCast S163840x256 (lowerArray x0 x1) shapeCasts_S1024x160x256_S163840x256 := by
  unfold val_main_v92
  rw [lowerArray_eq]

/-- The second result: the upper array with its pairs numbered along one axis. -/
theorem out1_eq (x0 : (⟨S160x2x256, .f32⟩ : BufTy).Contents (Elt Ideal)) (x1 : (⟨S1024x2x256, .f32⟩ : BufTy).Contents (Elt Ideal)) :
    val_main_v93 (F := Ideal) x0 x1 = shapeCast S163840x256 (upperArray x0 x1) shapeCasts_S1024x160x256_S163840x256 := by
  unfold val_main_v93
  rw [upperArray_eq]

end Cert.ReferenceIdeal.RefValue
end
-- ==== Proof.lean ====
/-
  All-pairs box intersection. The kernel and the reference compute, for every pair of a box of the second family
  (1024 of them) and a box of the first (160) and every one of 256 coordinates, the smooth maximum of the two boxes'
  lower corners and the smooth minimum of their upper corners; a box's corners are the logistic of its centre minus /
  plus the softplus (with slope ten) of its offset, and both programs then number the pairs along one axis.

  At the extended reals the two programs are one function of the arguments (Proof/BoxSpec.lean states it):
    • the kernel multiplies the softplus by a constant named one tenth, the reference divides it by ten: the quotient by
      the real ten is the product with the tenth on every extended real;
    • the kernel's logistic is, by definition, the reference's 1 / (1 + exp(−x));
    • the kernel writes 0 − y where the reference writes −y;
    • both guard the softplus by `x ≠ x`, which no extended real satisfies;
    • the reference takes max(smooth maximum, max a b) and min(smooth minimum, min a b): the correction
      β · log(1 + exp(·)) is never negative, so the outer max / min returns its first argument.
  None of these laws needs the inputs to be finite, so the precondition is not opened.

  The kernel's arrays after its run are read off its frame run block by block (Proof/BlockValue.lean: one grid point;
  Proof/KernelArrays.lean: the 8 × 10 grid tiles the outputs); the reference's run is read operation by operation
  (Proof/ReferenceValue.lean). Both end in the same reshape of the same [1024, 160, 256] array.
-/
import proofs.«155455_j89215060672871_1_alg».proof.Defs
import proofs.«155455_j89215060672871_1_alg».proof.Proof.Gen.Kernel
import proofs.«155455_j89215060672871_1_alg».proof.Proof.Gen.Kernel.Skeleton
import proofs.«155455_j89215060672871_1_alg».proof.Proof.Gen.Kernel.Launch
import proofs.«155455_j89215060672871_1_alg».proof.Proof.Gen.Kernel.Points
import proofs.«155455_j89215060672871_1_alg».proof.Proof.Gen.Kernel.Frame
import proofs.«155455_j89215060672871_1_alg».proof.Proof.Gen.KernelIdeal
import proofs.«155455_j89215060672871_1_alg».proof.Proof.Gen.KernelIdeal.Skeleton
import proofs.«155455_j89215060672871_1_alg».proof.Proof.Gen.KernelIdeal.Launch
import proofs.«155455_j89215060672871_1_alg».proof.Proof.Gen.KernelIdeal.Points
import proofs.«155455_j89215060672871_1_alg».proof.Proof.Gen.KernelIdeal.Frame
import proofs.«155455_j89215060672871_1_alg».proof.Proof.Gen.ReferenceIdeal
import proofs.«155455_j89215060672871_1_alg».proof.Proof.Gen.Pre_finite_inputs
import proofs.«155455_j89215060672871_1_alg».proof.Proof.Gen.ReferenceIdeal.Run
import proofs.«155455_j89215060672871_1_alg».proof.Proof.Gen.ReferenceIdeal.Read
import proofs.«155455_j89215060672871_1_alg».proof.Proof.KernelArrays
import proofs.«155455_j89215060672871_1_alg».proof.Proof.ReferenceValue
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments alone: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The two sites where the kernel's `0.1` was named: the table gives the name the value 1/10. -/
theorem preserves : Cert.preserves_Kernel_KernelIdeal :=
  ⟨IdealRules.named_const.statement Cert.KernelIdeal.κ "inv_10" .f32 0x3DCCCCCD#32 ((1 / 10 : ℝ) : EReal) rfl,
   IdealRules.named_const.statement Cert.KernelIdeal.κ "inv_10" .f32 0x3DCCCCCD#32 ((1 / 10 : ℝ) : EReal) rfl⟩

/-- Both programs end with the specification's two arrays, the pairs numbered along one axis, of arguments that agree. -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v92_eq, Cert.ReferenceIdeal.RefValue.out0_eq, (hagree c).1, (hagree c).2]
  · rw [(h c).2.1, Cert.ReferenceIdeal.Read.val_main_v93_eq, Cert.ReferenceIdeal.RefValue.out1_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
